-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S512 : Shape := ⟨1, ![512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S262144x512 .f32) (main_arg1 : FVec F S262144x512 .f32) (main_arg2 : FVec F S512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S262144x512 .f32 := Host.absf main_arg1
  let main_cst_0 : FVec F S_ .f32 := constant S_ .f32 0x7F800000#32
  let main_v5 : FVec F S262144x512 .f32 := broadcastInDim S262144x512 ![] bcast_S_S262144x512 main_cst_0
  let main_v6 : IVec S262144x512 1 := cmpf .olt main_v4 main_v5
  let main_c_1 : IVec S_ 1 := constantI S_ 1 1#1
  let main_v7 : IVec S_ 1 := (fun x v => Host.reduce IntOp.andi x v reducesTo_S262144x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S262144x512 : Shape := ⟨2, ![262144, 512]⟩
abbrev S512 : Shape := ⟨1, ![512]⟩
abbrev S1x512 : Shape := ⟨2, ![1, 512]⟩
abbrev S262144x1 : Shape := ⟨2, ![262144, 1]⟩
abbrev S2048x512 : Shape := ⟨2, ![2048, 512]⟩
abbrev S2048x1 : Shape := ⟨2, ![2048, 1]⟩
abbrev S2048 : Shape := ⟨1, ![2048]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S262144x512, .f32⟩
  | .hbm, ⟨1, _⟩ => ⟨S262144x512, .f32⟩
  | .hbm, ⟨2, _⟩ => ⟨S512, .f32⟩
  | .hbm, ⟨3, _⟩ => ⟨S1x512, .f32⟩
  | .hbm, ⟨4, _⟩ => ⟨S262144x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S2048x1, .f32⟩
  | .local _ .vmem, ⟨6, _⟩ => ⟨S2048x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  broadcasts_S2048x1_S2048x512 : S2048x1.Broadcasts S2048x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  reducesTo_S262144x1_S_d0_1 : S262144x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S262144x512.size a
  hwx0_1 : ∀ i : grid0.Coords, EltTy.bits .f32 = 32 ∨ (Rect.block (s := S262144x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S262144x1.size a
  hwx0_3 : ∀ i : grid0.Coords, EltTy.bits .f32 = 32 ∨ (Rect.block (s := S262144x1) S2048x1.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S512 : Shape := ⟨1, ![512]⟩
abbrev S_ : Shape := ⟨0, ![]⟩
abbrev S262144 : Shape := ⟨1, ![262144]⟩
abbrev S262144x1 : Shape := ⟨2, ![262144, 1]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144x512, .f32⟩
  | .hbm, ⟨2, _⟩ => ⟨S512, .f32⟩
  | .hbm, ⟨3, _⟩ => ⟨S_, .f32⟩
  | .hbm, ⟨4, _⟩ => ⟨S262144, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S262144x1, .f32⟩
  | .hbm, ⟨9, _⟩ => ⟨S262144x512, .f32⟩
  | .hbm, ⟨10, _⟩ => ⟨S262144x512, .f32⟩
  | .hbm, ⟨11, _⟩ => ⟨S262144x512, .f32⟩
  | .hbm, ⟨12, _⟩ => ⟨S_, .f32⟩
  | .hbm, ⟨13, _⟩ => ⟨S262144, .f32⟩
  | .hbm, ⟨14, _⟩ => ⟨S262144x1, .f32⟩
  | .hbm, ⟨15, _⟩ => ⟨S262144x1, .f32⟩
  | .hbm, ⟨16, _⟩ => ⟨S262144x512, .f32⟩
  | .hbm, ⟨17, _⟩ => ⟨S262144x512, .f32⟩
  | .hbm, ⟨18, _⟩ => ⟨S1x512, .f32⟩
  | .hbm, ⟨19, _⟩ => ⟨S262144x512, .f32⟩
  | .hbm, ⟨20, _⟩ => ⟨S262144x512, .f32⟩
  | .hbm, ⟨21, _⟩ => ⟨S262144x512, .f32⟩
  | .hbm, ⟨22, _⟩ => ⟨S_, .f32⟩
  | .hbm, ⟨23, _⟩ => ⟨S262144, .f32⟩
  | .hbm, ⟨24, _⟩ => ⟨S262144, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  reducesTo_S262144x512_S262144_d1 : S262144x512.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  reducesTo_S262144_S_d0 : S262144.ReducesTo [0] S_

variable [Facts₀]

class Facts : Prop extends Facts₀ where

variable [Facts]
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.Spec.lean ====
/-
  The soft cross-entropy of one row, in two arrangements, and the law that joins them.

  A row has entries `x k` (the logits) and weights `a k` (target times class weight). With `M` the largest
  entry and `L = log Σ exp (x k - M)`, the row's loss is `-Σ a k · ((x k - M) - L)`. One arrangement keeps the
  sum as it stands; the other splits it as `-(Σ a k · (x k - M) - L · Σ a k)`, so that the log-probabilities are never
  formed. The two agree when every `x k` and `a k` is a real number: then `M` is real (the row is not
  empty), the sum of exponentials is a positive real, `L` is real, and the identity is distributivity in `ℝ`.
  On the extended reals distributivity fails at the infinities, so finiteness is used.
-/
import Idealize.ShloMosaic.PureOps.Ideal
import Idealize.ShloMosaic.PureOps.Ideal.Laws
import proofs.«173208_j62199716381128_2_alg».proof.Proof.LibFolds

noncomputable section

namespace Cert.SoftCE

open Finset Idealize.ShloMosaic Cert.LibFolds

variable {κ : Type} [Fintype κ]

/-- The largest entry of a row (`⊥` for an empty one). -/
def rowMax (x : κ → EReal) : EReal := univ.fold max ⊥ x

/-- The row's loss with the sum split: `0 - (Σ a·(x - M) - log (Σ exp (x - M)) · Σ a)`. -/
def splitRow (x a : κ → EReal) : EReal :=
  0 - ((∑ k, a k * (x k - rowMax x)) - Ideal.log (∑ k, Ideal.exp (x k - rowMax x)) * ∑ k, a k)

/-- The row's loss as the definition reads: `-(0 + Σ a·((x - M') - log (0 + Σ exp (x - M'))))` with `M' = max ⊥ M`. -/
def plainRow (x a : κ → EReal) : EReal :=
  -(0 + ∑ k, a k * ((x k - max ⊥ (rowMax x)) - Ideal.log (0 + ∑ k, Ideal.exp (x k - max ⊥ (rowMax x)))))

/-- On rows of real numbers the two arrangements are one number. -/
theorem splitRow_eq_plainRow [Nonempty κ] (x a : κ → EReal) (hx : ∀ k, IsReal (x k)) (ha : ∀ k, IsReal (a k)) :
    splitRow x a = plainRow x a := by
  choose xr hxr using hx
  choose ar har using ha
  obtain ⟨M, hM⟩ := isReal_fold_max univ univ_nonempty x (fun k _ => ⟨xr k, hxr k⟩)
  have hpos : 0 < ∑ k, Real.exp (xr k - M) := sum_pos (fun k _ => Real.exp_pos _) univ_nonempty
  -- the shifted entries, their exponentials and the logarithm of the sum are real
  have hsh : ∀ k, x k - (M : EReal) = ((xr k - M : ℝ) : EReal) := fun k => by rw [hxr k, EReal.coe_sub]
  have hexp : ∀ k, Ideal.exp (x k - (M : EReal)) = ((Real.exp (xr k - M) : ℝ) : EReal) := fun k => by
    rw [hsh k, Ideal.exp_coe]
  have hlog : Ideal.log (∑ k, Ideal.exp (x k - (M : EReal))) = ((Real.log (∑ k, Real.exp (xr k - M)) : ℝ) : EReal) := by
    rw [sum_congr rfl fun k _ => hexp k, ← coe_sum, Ideal.log_coe, if_neg (not_le.2 hpos)]
  unfold splitRow plainRow rowMax
  rw [hM, max_eq_right bot_le, zero_add, zero_add, hlog]
  set L : ℝ := Real.log (∑ k, Real.exp (xr k - M)) with hL
  have h1 : ∑ k, a k * (x k - (M : EReal)) = ((∑ k, ar k * (xr k - M) : ℝ) : EReal) := by
    rw [coe_sum]; exact sum_congr rfl fun k _ => by rw [har k, hsh k, EReal.coe_mul]
  have h2 : ∑ k, a k = ((∑ k, ar k : ℝ) : EReal) := by
    rw [coe_sum]; exact sum_congr rfl fun k _ => har k
  have h3 : ∑ k, a k * (x k - (M : EReal) - (L : EReal)) = ((∑ k, ar k * (xr k - M - L) : ℝ) : EReal) := by
    rw [coe_sum]; exact sum_congr rfl fun k _ => by rw [har k, hsh k, ← EReal.coe_sub, EReal.coe_mul]
  rw [h1, h2, h3, ← EReal.coe_mul, ← EReal.coe_sub, zero_sub, ← EReal.coe_neg, ← EReal.coe_neg]
  refine congrArg _ (congrArg _ ?_)
  rw [mul_sum, ← sum_sub_distrib]
  exact sum_congr rfl fun k _ => by ring

/-! ## The bit patterns of the two literals -/

/-- The pattern of `-∞` denotes the bottom of the extended reals. -/
theorem ofBits_neg_inf : Ideal.ofBits .f32 0xFF800000#32 = ⊥ := by simp [Ideal.ofBits, Ideal.ieee]

end Cert.SoftCE

end
-- ==== Proof.LibKeepdims.lean ====
/-
  A column kept after a row reduction: the two layout steps of `keepdims=True`.

  A row reduction of an `[a, b]` array leaves an `[a]` vector; keeping the reduced axis casts it to `[a, 1]`, and
  using it against the `[a, b]` array broadcasts that column along the rows. Read at an index: the cast reads the
  vector at the row, whatever the unit coordinate; the broadcast reads the column at the row.
-/
import Idealize.ShloMosaic.Lib.ValueIdx
import Idealize.ShloMosaic.Lib.Pipeline.Value

namespace Cert.LibKeepdims

open Idealize.ShloMosaic Idealize.ShloMosaic.ValueIdx

variable {α : Type}

/-- An `[a]` vector cast to `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The kernel body's stored value, read at a row.

  The body loads a block of logits `x0` and of targets `x1` (2048 rows of 512 entries) and the class weights `x2`
  (one row of 512), and stores one number per row. At row `p` that number is the row's loss in the split
  arrangement: with `M` the row's largest logit and `a k = x1 (p, k) · x2 (0, k)`,
  `0 - (Σ a k · (x0 (p, k) - M) - log (Σ exp (x0 (p, k) - M)) · Σ a k)`.
  Each lane reduction is read as a sum or a fold of `max` over the row's 512 entries; each kept column as the
  vector's entry at the row; each broadcast as the column's or the weight row's entry.
-/
import proofs.«173208_j62199716381128_2_alg».proof.Proof.Gen.KernelIdeal.Skeleton
import proofs.«173208_j62199716381128_2_alg».proof.Proof.Spec
import proofs.«173208_j62199716381128_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.SoftCE Cert.LibKeepdims Finset

/-- The index a lane reduction reads at row `p` and lane `k` is `(p, k)`. -/
theorem lift_row (p : Fin 2048) (k : Fin 512) :
    reduces_S2048x512_S2048.lift (ix1 p) k = ix2 p k :=
  funext fun a => Fin.ext (by match a with | ⟨0, _⟩ => rfl | ⟨1, _⟩ => rfl)

/-- A lane sum kept as a column: at row `p` the sum of the row's entries. -/
theorem keptSum_apply (src : FVec Ideal S2048x512 .f32) (hφ : FKind.Formats .f32)
    (hacc : (0x00000000#32 : BitVec 32) = FKind.add.neutral .f32 hφ) (p : Fin 2048) (q : Fin 1) :
    shapeCast S2048x1 (multiReduction .add [1] S2048 src 0x00000000#32 reduces_S2048x512_S2048 hφ hacc) shapeCasts_S2048_S2048x1 (ix2 p q)
      = ∑ k : Fin 512, src (ix2 p k) := by
  rw [shapeCast_a_a1_apply]
  refine (Ideal.multiReduction_add_single src 0x00000000#32 reduces_S2048x512_S2048 hφ hacc (ix1 p)).trans ?_
  exact sum_congr rfl fun k _ => congrArg src (lift_row p k)

/-- A lane maximum kept as a column: at row `p` the largest of the row's entries. -/
theorem keptMax_apply (src : FVec Ideal S2048x512 .f32) (hφ : FKind.Formats .f32)
    (hacc : (0xFF800000#32 : BitVec 32) = FKind.maximumf.neutral .f32 hφ) (p : Fin 2048) (q : Fin 1) :
    shapeCast S2048x1 (multiReduction .maximumf [1] S2048 src 0xFF800000#32 reduces_S2048x512_S2048 hφ hacc) shapeCasts_S2048_S2048x1 (ix2 p q)
      = rowMax fun k : Fin 512 => src (ix2 p k) := by
  rw [shapeCast_a_a1_apply]
  refine (Ideal.multiReduction_maximumf_single src 0xFF800000#32 reduces_S2048x512_S2048 hφ hacc (ix1 p)).trans ?_
  unfold rowMax
  rw [Ideal.ofBits_def, ofBits_neg_inf]
  exact congrArg (fun f => Finset.fold max ⊥ f univ) (funext fun k => congrArg src (lift_row p k))

/-- A logit less its row's maximum, broadcast back over the row. -/
theorem shift_apply (x0 : FVec Ideal S2048x512 .f32) (hφ : FKind.Formats .f32)
    (hacc : (0xFF800000#32 : BitVec 32) = FKind.maximumf.neutral .f32 hφ) (p : Fin 2048) (k : Fin 512) :
    subf x0 (broadcastTo S2048x512 (shapeCast S2048x1 (multiReduction .maximumf [1] S2048 x0 0xFF800000#32 reduces_S2048x512_S2048 hφ hacc) shapeCasts_S2048_S2048x1) broadcasts_S2048x1_S2048x512) (ix2 p k)
      = x0 (ix2 p k) - rowMax fun k : Fin 512 => x0 (ix2 p k) := by
  rw [subf_apply, broadcastTo_a1_ab_apply, keptMax_apply]

/-- A target entry times its class weight, the weight row broadcast over the rows. -/
theorem weight_apply (x1 : FVec Ideal S2048x512 .f32) (x2 : FVec Ideal S1x512 .f32) (p : Fin 2048) (k : Fin 512) :
    mulf x1 (broadcastTo S2048x512 (shapeCast S1x512 x2 shapeCasts_S1x512_S1x512) broadcasts_S1x512_S2048x512) (ix2 p k)
      = x1 (ix2 p k) * x2 (ix2 (0 : Fin 1) k) := by
  rw [mulf_apply, broadcastTo_1b_ab_apply, shapeCast_self]

/-- The row's loss, split: what the body stores at row `p`. -/
theorem pay_apply (x0 x1 : FVec Ideal S2048x512 .f32) (x2 : FVec Ideal S1x512 .f32) (p : Fin 2048) (q : Fin 1) :
    k0_pay1 (F := Ideal) x0 x1 x2 (ix2 p q)
      = splitRow (fun k : Fin 512 => x0 (ix2 p k)) (fun k : Fin 512 => x1 (ix2 p k) * x2 (ix2 (0 : Fin 1) k)) := by
  unfold k0_pay1 splitRow
  dsimp only
  rw [subf_apply, subf_apply, mulf_apply, broadcast_apply]
  show Ideal.ofBits .f32 0x00000000#32 - _ = _
  rw [Ideal.ofBits_zero_f32]
  refine congrArg (0 - ·) (congr (congrArg HSub.hSub ?_) (congr (congrArg HMul.hMul ?_) ?_))
  · refine (keptSum_apply _ _ _ p q).trans (sum_congr rfl fun k _ => ?_)
    exact (mulf_apply _ _ _).trans (congr (congrArg HMul.hMul (weight_apply x1 x2 p k)) (shift_apply x0 _ _ p k))
  · show Ideal.log _ = _
    refine congrArg Ideal.log ((keptSum_apply _ _ _ p q).trans (sum_congr rfl fun k _ => ?_))
    show Ideal.exp _ = _
    exact congrArg Ideal.exp (shift_apply x0 _ _ p k)
  · exact (keptSum_apply _ _ _ p q).trans (sum_congr rfl fun k _ => weight_apply x1 x2 p k)

end Cert.KernelIdeal.Body

end
-- ==== Proof.Loss.lean ====
/-
  The mean weighted soft cross-entropy of an array of logits against an array of soft targets.

  Row `r` of the `[262144, 512]` arrays has logits `x (r, k)` and weights `t (r, k) · w k`; its loss is the row's
  soft cross-entropy (split or plain arrangement), and the result is the rows' sum, taken from `0`, divided by the number
  of rows as the pattern of `262144.0` denotes it. On arrays of real numbers the two arrangements give one mean.
-/
import proofs.«173208_j62199716381128_2_alg».proof.Proof.Spec
import Idealize.ShloMosaic.Lib.ValueIdx

noncomputable section

namespace Cert.SoftCE

open Finset Idealize.ShloMosaic Idealize.ShloMosaic.ValueIdx Cert.LibFolds

/-- The shape of the logits and of the targets, and of the class weights. -/
abbrev SNK : Shape := ⟨2, ![262144, 512]⟩
abbrev SK : Shape := ⟨1, ![512]⟩

/-- Row `r`'s loss with the sum split. -/
def rowLoss (x t : SNK.Idx → EReal) (w : SK.Idx → EReal) (r : Fin 262144) : EReal :=
  splitRow (fun k : Fin 512 => x (ix2 r k)) (fun k : Fin 512 => t (ix2 r k) * w (ix1 k))

/-- Row `r`'s loss as the definition reads. -/
def rowLossPlain (x t : SNK.Idx → EReal) (w : SK.Idx → EReal) (r : Fin 262144) : EReal :=
  plainRow (fun k : Fin 512 => x (ix2 r k)) (fun k : Fin 512 => t (ix2 r k) * w (ix1 k))

/-- The mean of the split row losses. -/
def meanLoss (x t : SNK.Idx → EReal) (w : SK.Idx → EReal) : EReal :=
  Ideal.div (0 + ∑ r : Fin 262144, rowLoss x t w r) (Ideal.ofBits .f32 0x48800000#32)

/-- The mean of the plain row losses. -/
def meanLossPlain (x t : SNK.Idx → EReal) (w : SK.Idx → EReal) : EReal :=
  Ideal.div (0 + ∑ r : Fin 262144, rowLossPlain x t w r) (Ideal.ofBits .f32 0x48800000#32)

/-- A product of two real numbers is a real number. -/
theorem isReal_mul {a b : EReal} (ha : IsReal a) (hb : IsReal b) : IsReal (a * b) := by
  obtain ⟨ra, rfl⟩ := ha
  obtain ⟨rb, rfl⟩ := hb
  exact ⟨ra * rb, (EReal.coe_mul ra rb).symm⟩

/-- On arrays of real numbers the two means are one number. -/
theorem meanLoss_eq_plain (x t : SNK.Idx → EReal) (w : SK.Idx → EReal) (hx : ∀ i, IsReal (x i)) (ht : ∀ i, IsReal (t i))
    (hw : ∀ i, IsReal (w i)) : meanLoss x t w = meanLossPlain x t w := by
  unfold meanLoss meanLossPlain
  refine congrArg (fun s => Ideal.div (0 + s) (Ideal.ofBits .f32 0x48800000#32)) (sum_congr rfl fun r _ => ?_)
  haveI : Nonempty (Fin 512) := ⟨0⟩
  exact splitRow_eq_plainRow _ _ (fun k => hx _) (fun k => isReal_mul (ht _) (hw _))

end Cert.SoftCE

end
-- ==== Proof.KernelValue.lean ====
/-
  What the kernel's program computes: the mean of the split row losses of its arguments.

  The region writes, at grid point `t`, rows `2048·t … 2048·t + 2047` of a `[262144, 1]` array: each row's split
  loss of the logits and targets in the same rows and of the class weights (the weight vector, recast as one row before
  the region). The 128 blocks tile the array, so after the region the array holds every row's loss; the two host lines
  after it sum the array from `0` and divide by `262144.0`.
-/
import proofs.«173208_j62199716381128_2_alg».proof.Proof.Gen.KernelIdeal.Frame
import proofs.«173208_j62199716381128_2_alg».proof.Proof.Payload
import proofs.«173208_j62199716381128_2_alg».proof.Proof.Loss
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Body Cert.SoftCE Finset

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 128 grid points: the logits', the targets' and the output's blocks are block `t`
    of their arrays' rows, the weight row's block is always the whole row. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `2048·t + p` of the array. -/
def rowAt (t : Fin cfg0.N) (p : Fin 2048) : Fin 262144 :=
  ⟨t.val * 2048 + p.val, by have := t.isLt; have h : cfg0.N = 128 := N_0; have := p.isLt; omega⟩

/-- The logits' block at point `t`, read at `(p, k)`: the array at row `2048·t + p`. -/
theorem iblk0_apply (c : Dev nD) (t : Fin cfg0.N) (p : Fin 2048) (k : Fin 512) :
    (iblk m c 0 t : FVec Ideal S2048x512 .f32) (ix2 p k) = (V m c main_arg0 : S262144x512.Idx → EReal) (ix2 (rowAt t p) k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * p.val = t.val * 2048 + p.val; rw [e0]; omega
  | ⟨1, _⟩ => show win0_0.index t (1 : Fin 2) * 512 + 1 * k.val = k.val; rw [e1]; omega

/-- The targets' block likewise. -/
theorem iblk1_apply (c : Dev nD) (t : Fin cfg0.N) (p : Fin 2048) (k : Fin 512) :
    (iblk m c 1 t : FVec Ideal S2048x512 .f32) (ix2 p k) = (V m c main_arg1 : S262144x512.Idx → EReal) (ix2 (rowAt t p) k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 2048 + 1 * p.val = t.val * 2048 + p.val; rw [e0]; omega
  | ⟨1, _⟩ => show win0_1.index t (1 : Fin 2) * 512 + 1 * k.val = k.val; rw [e1]; omega

/-- The weight row's block is the row. -/
theorem iblk2_apply (c : Dev nD) (t : Fin cfg0.N) (k : Fin 512) :
    (iblk m c 2 t : FVec Ideal S1x512 .f32) (ix2 (0 : Fin 1) k) = (V m c main_v0 : S1x512.Idx → EReal) (ix2 (0 : Fin 1) k) := by
  obtain ⟨-, -, -, -, e0, e1, -⟩ := idx_facts t
  unfold iblk
  rw [View.read_apply]
  show V m c main_v0 _ = V m c main_v0 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * k.val = k.val; rw [e1]; omega

/-- The weight row as the region finds it is the weight vector: the host line before the region recasts `[512]` as `[1, 512]`. -/
theorem weightRow_apply (c : Dev nD) (k : Fin 512) :
    (V m c main_v0 : S1x512.Idx → EReal) (ix2 (0 : Fin 1) k) = (m ((c : Thread nD τ).loc main_arg2) : S512.Idx → EReal) (ix1 k) := by
  have e : (V m c main_v0 : S1x512.Idx → EReal)
      = fun i => shapeCast S1x512 (m ((c : Thread nD τ).loc main_arg2) : S512.Idx → EReal) shapeCasts_S512_S1x512 i := by
    show StableHlo.after hostOps0 (fun b => m (c, b)) (Proc.devRef .tc main_v0) = _
    after_results
    rfl
  rw [e]
  exact shapeCast_a_1a_apply _ _ _ _

/-- The array the region leaves: every row's split loss of the arguments. -/
def rowLosses (c : Dev nD) : S262144x1.Idx → EReal := fun i =>
  rowLoss (m ((c : Thread nD τ).loc main_arg0)) (m ((c : Thread nD τ).loc main_arg1)) (m ((c : Thread nD τ).loc main_arg2)) (i 0)

/-- What point `t` writes back is block `t` of the row losses. -/
theorem flushed_eq (c : Dev nD) (t : Fin cfg0.N) :
    (dats m 0 c).flushed 3 t = ((cfg0.win 3).blk t).view.read (Elt Ideal) (rowLosses m c) := by
  show (cfg0.win 3).cut (grid0.coords t) ((dats m 0 c).after 3 t) = _
  rw [after0_3]
  unfold out0_3
  rw [View.canon_unit_zero hz]
  simp only [View.ld_unit_zero (S := S2048x512) hz, View.ld_unit_zero (S := S1x512) hz]
  obtain ⟨-, -, -, -, -, -, e0, e1⟩ := idx_facts t
  funext j
  obtain ⟨p, q, rfl⟩ : ∃ (p : Fin 2048) (q : Fin 1), j = ix2 p q := ⟨j 0, j 1, eq_ix2 j⟩
  refine (pay_apply (iblk m c 0 t) (iblk m c 1 t) (iblk m c 2 t) p q).trans ?_
  have hr : ((((cfg0.win 3).blk t).view.emb (ix2 p q)) 0 : Fin 262144) = rowAt t p :=
    Fin.ext (by show win0_3.index t (0 : Fin 2) * 2048 + 1 * p.val = t.val * 2048 + p.val; rw [e0]; omega)
  show _ = rowLoss _ _ _ ((((cfg0.win 3).blk t).view.emb (ix2 p q)) 0)
  rw [hr]
  unfold rowLoss
  refine congr (congrArg splitRow (funext fun k => ?_)) (funext fun k => ?_)
  · rw [iblk0_apply, V_main_arg0]
  · rw [iblk1_apply, iblk2_apply, weightRow_apply, V_main_arg1]

/-- An index of the output array is in point `t`'s block iff each coordinate is in the block's range. -/
theorem mem_blk (t : Fin cfg0.N) (i : S262144x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v1).slice (win0_3.rect t)).set ↔ _
  rw [View.set_slice_whole, Rect.mem_set_unit]
  exact Iff.rfl

/-- Row `r` is written by point `r / 2048`: the blocks cover the array. -/
theorem cover (i : S262144x1.Idx) : ∃ t : Fin cfg0.N, (cfg0.win 3).flush t = true ∧ i ∈ ((cfg0.win 3).blk t).view.set := by
  have hN : cfg0.N = 128 := N_0
  have hi0 : (i 0).val < 262144 := (i 0).isLt
  have hi1 : (i 1).val < 1 := (i 1).isLt
  let t : Fin cfg0.N := ⟨(i 0).val / 2048, by omega⟩
  obtain ⟨-, -, -, -, -, -, e0, e1⟩ := idx_facts t
  have ht : t.val = (i 0).val / 2048 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 1 ≤ (i 1).val ∧ (i 1).val < win0_3.index t (1 : Fin 2) * 1 + 1; rw [e1]; omega

/-- The array after the region: the row losses. -/
theorem final (c : Dev nD) : (dats m 0 c).arrAt 3 cfg0.N = rowLosses m c :=
  (dats m 0 c).arrAt_eq_of_cover 3 (rowLosses m c) (fun t _ => flushed_eq m c t) cover

/-- The sum of the row losses over the array's indices is the sum over the rows. -/
theorem sum_rowLosses (c : Dev nD) :
    ∑ i : S262144x1.Idx, rowLosses m c i
      = ∑ r : Fin 262144, rowLoss (m ((c : Thread nD τ).loc main_arg0)) (m ((c : Thread nD τ).loc main_arg1)) (m ((c : Thread nD τ).loc main_arg2)) r := by
  rw [sum_idx2]
  exact sum_congr rfl fun r _ => Fin.sum_univ_one _

/-- The program's result: the host lines after the region sum the array from `0` and divide by `262144.0`. -/
theorem result_eq (c : Dev nD) :
    Pipeline.afterTail₀ cfgs (dats m) 0 (V0 m) [hostOps1] c main_v3
      = fun _ => meanLoss (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  rw [(Pipeline.withArrays_arr spec0 launch0.win.arr_inj c _ _ 3).trans (final m c)]
  funext i
  show Ideal.div _ _ = _
  unfold meanLoss
  refine congr (congrArg Ideal.div ?_) rfl
  simp only [Host.reduceAdd, Ideal.hostReduceAdd_def]
  rw [Ideal.hostReduceAdd_total reducesTo_S262144x1_S_d0_1 (fun b => b.elim0), sum_rowLosses]
  show Ideal.ofBits .f32 0x00000000#32 + _ = _
  rw [Ideal.ofBits_zero_f32]

/-- The run, read: the result at the mean of the split row losses, the arguments unchanged. -/
theorem run : θ_run defs (onTc (τ := τ) (main (F := Ideal))) ⟨m, fun _ => 0, ρ⟩ fun r => ∀ c : Dev nD,
      r.2.mem ((c.tc : Thread nD τ).loc main_v3)
        = (fun _ => meanLoss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Hand

end
-- ==== Proof.RefValue.lean ====
/-
  What the reference computes: the mean of the plain row losses of its arguments.

  The reference takes each row's maximum (joined with `-∞`), subtracts it, exponentiates, sums and takes the logarithm
  to form the row's log-probabilities; multiplies them by target times class weight; sums each row from `0` and
  negates; sums the rows from `0`; and divides by `262144.0`. Read one operation at a time at an index, that is the
  plain arrangement of every row's loss, and their mean.
-/
import proofs.«173208_j62199716381128_2_alg».proof.Proof.RefReadPatched
import proofs.«173208_j62199716381128_2_alg».proof.Proof.Loss
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.ReadP
open Cert.SoftCE Finset

variable (x0 x1 : (⟨S262144x512, .f32⟩ : BufTy).Contents (Elt Ideal)) (x2 : (⟨S512, .f32⟩ : BufTy).Contents (Elt Ideal))

/-- The entry a row reduction reads at row `r` and lane `k` is `(r, k)`. -/
theorem lift_row (h : S262144x512.Reduces [1] S262144) (r : Fin 262144) (k : Fin 512) : h.lift (ix1 r) k = ix2 r k :=
  funext fun a => Fin.ext (by match a with | ⟨0, _⟩ => rfl | ⟨1, _⟩ => rfl)

/-- The row's maximum, joined with the pattern of `-∞`. -/
theorem rowMax_apply (r : Fin 262144) :
    val_main_call0_v2 (F := Ideal) x0 (ix1 r) = max ⊥ (rowMax fun k : Fin 512 => x0 (ix2 r k)) := by
  have h : S262144x512.Reduces [1] S262144 := by decide
  rw [val_main_call0_v2_apply, val_main_call0_v1_apply, val_main_call0_cst_0_apply]
  unfold val_main_call0_v0
  refine (congrArg (FloatOps.maximumf _)
    (Host.reduce_eq_fold_single (α := Ideal .f32) FloatOps.maximumf x0 _ reducesTo_S262144x512_S262144_d1 h h_S_ (ix1 r))).trans ?_
  show max (Ideal.ofBits .f32 0xFF800000#32) (Finset.fold max (Ideal.ofBits .f32 0xFF800000#32) (x0 ∘ h.lift (ix1 r)) univ) = _
  rw [ofBits_neg_inf]
  unfold rowMax
  exact congrArg (fun f => max ⊥ (Finset.fold max ⊥ f univ)) (funext fun k => congrArg x0 (lift_row h r k))

/-- A logit less its row's maximum. -/
theorem shifted_apply (r : Fin 262144) (k : Fin 512) :
    val_main_call0_v5 (F := Ideal) x0 (ix2 r k) = x0 (ix2 r k) - max ⊥ (rowMax fun k : Fin 512 => x0 (ix2 r k)) := by
  rw [val_main_call0_v5_apply, val_main_call0_v4_apply, val_main_call0_v3_apply]
  have e : idx_main_call0_v3 (idx_main_call0_v4 (ix2 r k)) = ix1 r := funext fun a => Fin.ext (by match a with | ⟨0, _⟩ => rfl)
  rw [e, rowMax_apply]
  rfl

/-- The logarithm of the row's sum of exponentials. -/
theorem logSum_apply (r : Fin 262144) (k : Fin 512) :
    val_main_call0_v10 (F := Ideal) x0 (ix2 r k)
      = Ideal.log (0 + ∑ k' : Fin 512, Ideal.exp (x0 (ix2 r k') - max ⊥ (rowMax fun k : Fin 512 => x0 (ix2 r k)))) := by
  rw [val_main_call0_v10_apply, val_main_call0_v9_apply, val_main_call0_v8_apply]
  have e : idx_main_call0_v8 (idx_main_call0_v10 (ix2 r k)) = ix1 r := funext fun a => Fin.ext (by match a with | ⟨0, _⟩ => rfl)
  rw [e, val_main_call0_v7_apply, val_main_call0_cst_1_apply, Ideal.hostUnary_log_def, Ideal.ofBits_def, Ideal.ofBits_zero_f32]
  refine congrArg (fun s => Ideal.log (0 + s)) (sum_congr rfl fun k' _ => ?_)
  have e' : idx_main_call0_v7 (ix1 r) k' = ix2 r k' := funext fun a => Fin.ext (by match a with | ⟨0, _⟩ => rfl | ⟨1, _⟩ => rfl)
  rw [e', val_main_call0_v6_apply, Ideal.hostUnary_exp_def, shifted_apply]

/-- A target entry times its class weight. -/
theorem weight_apply (r : Fin 262144) (k : Fin 512) :
    val_main_v3 (F := Ideal) x1 x2 (ix2 r k) = x1 (ix2 r k) * x2 (ix1 k) := by
  rw [val_main_v3_apply, val_main_v2_apply, val_main_v1_apply]
  have e : idx_main_v1 (idx_main_v2 (ix2 r k)) = ix1 k := funext fun a => Fin.ext (by match a with | ⟨0, _⟩ => rfl)
  rw [e]
  rfl

/-- Row `r`'s negated sum is the row's plain loss. -/
theorem row_apply (r : Fin 262144) :
    val_main_v6 (F := Ideal) x0 x1 x2 (ix1 r) = rowLossPlain x0 x1 x2 r := by
  rw [val_main_v6_apply, val_main_v5_apply, val_main_cst_apply, Ideal.hostNegf_def, Ideal.negf_def, Ideal.ofBits_def, Ideal.ofBits_zero_f32]
  unfold rowLossPlain plainRow
  refine congrArg (fun s => -(0 + s)) (sum_congr rfl fun k _ => ?_)
  have e : idx_main_v5 (ix1 r) k = ix2 r k := funext fun a => Fin.ext (by match a with | ⟨0, _⟩ => rfl | ⟨1, _⟩ => rfl)
  rw [e, val_main_v4_apply, val_main_v0_apply, weight_apply, shifted_apply, logSum_apply]
  rfl

/-- A sum over the indices of a vector is the sum over its one coordinate. -/
theorem sum_idx1 {M : Type} [AddCommMonoid M] {n : Nat} (f : (⟨1, ![n]⟩ : Shape).Idx → M) : ∑ j, f j = ∑ r : Fin n, f (ix1 r) :=
  (Fintype.sum_bijective (ix1 (n := n)) ⟨fun a b h => by have e := congrFun h 0; exact e, fun j => ⟨j 0, (eq_ix1 j).symm⟩⟩ _ _ fun _ => rfl).symm

/-- The reference's result is the mean of the plain row losses. -/
theorem result_eq : val_main_v8 (F := Ideal) x0 x1 x2 = fun _ => meanLossPlain x0 x1 x2 := by
  funext i
  rw [val_main_v8_apply, val_main_v7_apply, val_main_cst_1_apply, val_main_cst_0_apply, Ideal.hostDivf_def, Ideal.ofBits_def, Ideal.ofBits_def,
    Ideal.ofBits_zero_f32, sum_idx1]
  unfold meanLossPlain
  exact congrArg (fun s => Ideal.div (0 + s) (Ideal.ofBits .f32 0x48800000#32)) (sum_congr rfl fun r _ => row_apply x0 x1 x2 r)

end Cert.ReferenceIdeal.RefValue

end
-- ==== Proof.Finite.lean ====
/-
  The precondition read back: every entry of the three inputs is a real number.

  The precondition is the conjunction of three statements `all (|v| < +∞)`, one per input. A conjunction of bits that
  is 1 has every bit 1; an `all` that is 1 has a 1 at every index; and an extended real whose absolute value
  `max v (-v)` lies below `⊤` is neither `⊤` nor `⊥`, hence a real number.
-/
import proofs.«173208_j62199716381128_2_alg».proof.Pre_finite_inputs
import proofs.«173208_j62199716381128_2_alg».proof.Proof.Gen.Pre_finite_inputs
import proofs.«173208_j62199716381128_2_alg».proof.Proof.LibFolds
import Idealize.ShloMosaic.PureOps.Ideal.Laws
import Idealize.ShloMosaic.Lib.ReduceAll
import Idealize.ShloMosaic.Lib.ValueIdx

namespace Cert.SoftCE

open Idealize.ShloMosaic Idealize.ShloMosaic.ValueIdx Cert.LibFolds Cert.Pre_finite_inputs

/-- The pattern of `+∞` denotes the top of the extended reals. -/
theorem ofBits_pos_inf : Ideal.ofBits .f32 0x7F800000#32 = ⊤ := by simp [Ideal.ofBits, Ideal.ieee]

/-- An extended real whose absolute value compares below `+∞` is a real number. -/
theorem isReal_of_abs_lt_top (v : EReal)
    (h : FloatOps.cmpf (F := Ideal) (φ := .f32) .olt (FloatOps.hostAbsf (F := Ideal) (φ := .f32) v) (Ideal.ofBits .f32 0x7F800000#32) = 1#1) :
    IsReal v := by
  rw [ofBits_pos_inf] at h
  induction v using EReal.rec with
  | bot => exact absurd h (by simp [Ideal.cmpf_def, Ideal.cmp, Ideal.absf_def])
  | top => exact absurd h (by simp [Ideal.cmpf_def, Ideal.cmp, Ideal.absf_def])
  | coe r => exact ⟨r, rfl⟩

instance : Subsingleton S_.Idx := ⟨fun a b => funext fun d => d.elim0⟩

/-- Under the precondition every entry of every input is a real number. -/
theorem real_of_pre (x0 x1 : FVec Ideal S262144x512 .f32) (x2 : FVec Ideal S512 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => isReal_of_abs_lt_top _ ?_, fun i => isReal_of_abs_lt_top _ ?_, fun i => isReal_of_abs_lt_top _ ?_⟩
  · exact Host.reduce_andi_all _ _ _ _ _ h0' i
  · exact Host.reduce_andi_all _ _ _ _ _ h1 i
  · exact Host.reduce_andi_all _ _ _ _ _ h2 i

end Cert.SoftCE
-- ==== Proof.lean ====
/-
  The weighted soft cross-entropy kernel against its reference, at the extended reals.

  Both programs take logits `x` and soft targets `t` of shape [262144, 512] and class weights `w` of shape [512], and
  return the mean over the rows of `-Σ_k t·w·log_softmax(x)`. The kernel forms, per row, `M = max_k x`,
  `L = log Σ_k exp (x - M)`, and the loss as `-(Σ_k t·w·(x - M) - L · Σ_k t·w)`, so that the log-probabilities
  `(x - M) - L` are never formed; the reference forms them and sums `t·w·((x - M) - L)`. The two rows' losses differ by
  distributing `t·w` over `(x - M) - L` and taking `L` out of the sum — a law of the real numbers that fails at the
  infinities of the extended reals, so the precondition (every input finite) is used: then `M`, the sum of
  exponentials (positive: it is not an empty sum), `L` and every product are real, and the law is distributivity
  in `ℝ`. Everything else is the same on both sides: the row maximum as a fold of `max` from `-∞`, the sums from `0`,
  the mean as the sum over the rows divided by the same pattern of `262144.0`.

  The kernel's blocks of 2048 rows tile the array of row losses (point `t` writes rows `2048·t` onwards), so after the
  region the array holds every row's loss; the host lines after it sum and divide. The idealization rewrote no
  operation, so `preserves` is trivial.
-/
import proofs.«173208_j62199716381128_2_alg».proof.Defs
import proofs.«173208_j62199716381128_2_alg».proof.Proof.Gen.Kernel
import proofs.«173208_j62199716381128_2_alg».proof.Proof.Gen.Kernel.Skeleton
import proofs.«173208_j62199716381128_2_alg».proof.Proof.Gen.Kernel.Launch
import proofs.«173208_j62199716381128_2_alg».proof.Proof.Gen.Kernel.Points
import proofs.«173208_j62199716381128_2_alg».proof.Proof.Gen.Kernel.Frame
import proofs.«173208_j62199716381128_2_alg».proof.Proof.Gen.KernelIdeal
import proofs.«173208_j62199716381128_2_alg».proof.Proof.Gen.KernelIdeal.Skeleton
import proofs.«173208_j62199716381128_2_alg».proof.Proof.Gen.KernelIdeal.Launch
import proofs.«173208_j62199716381128_2_alg».proof.Proof.Gen.KernelIdeal.Points
import proofs.«173208_j62199716381128_2_alg».proof.Proof.Gen.KernelIdeal.Frame
import proofs.«173208_j62199716381128_2_alg».proof.Proof.Gen.ReferenceIdeal
import proofs.«173208_j62199716381128_2_alg».proof.Proof.Gen.Pre_finite_inputs
import proofs.«173208_j62199716381128_2_alg».proof.Proof.KernelValue
import proofs.«173208_j62199716381128_2_alg».proof.Proof.RefValue
import proofs.«173208_j62199716381128_2_alg».proof.Proof.Finite
import Idealize.ShloMosaic.Adequacy
import Idealize.ShloMosaic.Init

noncomputable section

namespace Cert.Proof

open Idealize.ShloMosaic Idealize.ShloMosaic.TcCoe Idealize.SL.Sem Cert.SoftCE

/-- The kernel as printed runs, and its arguments end unchanged. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The kernel ends at the mean of the split row losses, the reference at the mean of the plain ones, of arguments
    that agree and are finite: one number. -/
theorem algebraic : Cert.algebraic_KernelIdeal_ReferenceIdeal := by
  intro m ρ m' ρ' hpre hagree
  refine ⟨fun c => fun _ => meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v8_eq _ _ _).trans ?_
  rw [Cert.ReferenceIdeal.RefValue.result_eq, (hagree c).1, (hagree c).2.1, (hagree c).2.2]
  obtain ⟨hx, ht, hw⟩ := real_of_pre _ _ _ (hpre c)
  exact funext fun _ => (meanLoss_eq_plain _ _ _ hx ht hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
